-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x16384x256 : Shape := ⟨3, ![16, 16384, 256]⟩
abbrev S256x256 : Shape := ⟨2, ![256, 256]⟩
abbrev S256 : Shape := ⟨1, ![256]⟩
abbrev S6553 : Shape := ⟨1, ![6553]⟩
abbrev S_ : Shape := ⟨0, ![]⟩

class Facts : Prop where
  bcast_S_S16x16384x256 : S_.BroadcastsInDim S16x16384x256 (![] : Fin 0 → Fin S16x16384x256.rank)
  reducesTo_S16x16384x256_S_d0_1_2 : S16x16384x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S6553 : S_.BroadcastsInDim S6553 (![] : Fin 0 → Fin S6553.rank)
  reducesTo_S6553_S_d0 : S6553.ReducesTo [0] S_

variable [Facts]

def fn_part1 {F : FTy → Type} [FloatOps F] (main_v13 : IVec S_ 1) (main_v16 : IVec S6553 1) : IVec S_ 1 :=
  let main_c_5 : IVec S_ 1 := constantI S_ 1 1#1
  let main_v17 : IVec S_ 1 := (fun x v => Host.reduce IntOp.andi x v reducesTo_S6553_S_d0 h_S_) main_v16 main_c_5
  let main_v18 : IVec S_ 1 := andi main_v13 main_v17
  main_v18

def fn {F : FTy → Type} [FloatOps F] (main_arg0 : FVec F S16x16384x256 .f32) (main_arg1 : FVec F S256x256 .f32) (main_arg2 : FVec F S256 .f32) (main_arg3 : IVec S6553 32) (main_arg4 : IVec S6553 32) (main_arg5 : FVec F S6553 .f32) : IVec S_ 1 :=
  let main_v0 : FVec F S16x16384x256 .f32 := Host.absf main_arg0
  let main_cst : FVec F S_ .f32 := constant S_ .f32 0x7F800000#32
  let main_v1 : FVec F S16x16384x256 .f32 := broadcastInDim S16x16384x256 ![] bcast_S_S16x16384x256 main_cst
  let main_v2 : IVec S16x16384x256 1 := cmpf .olt main_v0 main_v1
  let main_c : IVec S_ 1 := constantI S_ 1 1#1
  let main_v3 : IVec S_ 1 := (fun x v => Host.reduce IntOp.andi x v reducesTo_S16x16384x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S6553 .f32 := Host.absf main_arg5
  let main_cst_4 : FVec F S_ .f32 := constant S_ .f32 0x7F800000#32
  let main_v15 : FVec F S6553 .f32 := broadcastInDim S6553 ![] bcast_S_S6553 main_cst_4
  let main_v16 : IVec S6553 1 := cmpf .olt main_v14 main_v15
  fn_part1 (F := F) main_v13 main_v16
-- ==== Kernel.lean ====
abbrev S16x16384x256 : Shape := ⟨3, ![16, 16384, 256]⟩
abbrev S256x256 : Shape := ⟨2, ![256, 256]⟩
abbrev S256 : Shape := ⟨1, ![256]⟩
abbrev S6553 : Shape := ⟨1, ![6553]⟩
abbrev S_ : Shape := ⟨0, ![]⟩
abbrev S6553x1 : Shape := ⟨2, ![6553, 1]⟩
abbrev S6553x2 : Shape := ⟨2, ![6553, 2]⟩
abbrev S1x256 : Shape := ⟨2, ![1, 256]⟩
abbrev S262144x256 : Shape := ⟨2, ![262144, 256]⟩
abbrev S4096x256 : Shape := ⟨2, ![4096, 256]⟩

abbrev nBuf : Space → Nat
  | .hbm => 36
  | .vmem => 6
  | .smem => 0
  | _ => 0

abbrev bufTy : (tb : Table) → Fin (tcTables nBuf tb) → BufTy
  | .hbm, ⟨0, _⟩ => ⟨S16x16384x256, .f32⟩
  | .hbm, ⟨1, _⟩ => ⟨S256x256, .f32⟩
  | .hbm, ⟨2, _⟩ => ⟨S256, .f32⟩
  | .hbm, ⟨3, _⟩ => ⟨S6553, .i32⟩
  | .hbm, ⟨4, _⟩ => ⟨S6553, .i32⟩
  | .hbm, ⟨5, _⟩ => ⟨S6553, .f32⟩
  | .hbm, ⟨6, _⟩ => ⟨S_, .f32⟩
  | .hbm, ⟨7, _⟩ => ⟨S256x256, .f32⟩
  | .hbm, ⟨8, _⟩ => ⟨S_, .i32⟩
  | .hbm, ⟨9, _⟩ => ⟨S6553, .i32⟩
  | .hbm, ⟨10, _⟩ => ⟨S6553, .i1⟩
  | .hbm, ⟨11, _⟩ => ⟨S_, .i32⟩
  | .hbm, ⟨12, _⟩ => ⟨S6553, .i32⟩
  | .hbm, ⟨13, _⟩ => ⟨S6553, .i32⟩
  | .hbm, ⟨14, _⟩ => ⟨S6553, .i32⟩
  | .hbm, ⟨15, _⟩ => ⟨S_, .i32⟩
  | .hbm, ⟨16, _⟩ => ⟨S6553, .i32⟩
  | .hbm, ⟨17, _⟩ => ⟨S6553, .i1⟩
  | .hbm, ⟨18, _⟩ => ⟨S_, .i32⟩
  | .hbm, ⟨19, _⟩ => ⟨S6553, .i32⟩
  | .hbm, ⟨20, _⟩ => ⟨S6553, .i32⟩
  | .hbm, ⟨21, _⟩ => ⟨S6553, .i32⟩
  | .hbm, ⟨22, _⟩ => ⟨S6553x1, .i32⟩
  | .hbm, ⟨23, _⟩ => ⟨S6553x1, .i32⟩
  | .hbm, ⟨24, _⟩ => ⟨S6553x2, .i32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S256x256, .f32⟩
  | .hbm, ⟨31, _⟩ => ⟨S256x256, .bf16⟩
  | .hbm, ⟨32, _⟩ => ⟨S1x256, .f32⟩
  | .hbm, ⟨33, _⟩ => ⟨S262144x256, .f32⟩
  | .hbm, ⟨34, _⟩ => ⟨S262144x256, .f32⟩
  | .hbm, ⟨35, _⟩ => ⟨S16x16384x256, .f32⟩
  | .local _ .vmem, ⟨0, _⟩ => ⟨S4096x256, .f32⟩
  | .local _ .vmem, ⟨1, _⟩ => ⟨S4096x256, .f32⟩
  | .local _ .vmem, ⟨2, _⟩ => ⟨S256x256, .bf16⟩
  | .local _ .vmem, ⟨3, _⟩ => ⟨S1x256, .f32⟩
  | .local _ .vmem, ⟨4, _⟩ => ⟨S4096x256, .f32⟩
  | .local _ .vmem, ⟨5, _⟩ => ⟨S4096x256, .f32⟩
  | _, _ => ⟨S16x16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S256x256 : S_.BroadcastsInDim S256x256 (![] : Fin 0 → Fin S256x256.rank)
  bcast_S_S6553 : S_.BroadcastsInDim S6553 (![] : Fin 0 → Fin S6553.rank)
  bcast_S6553_S6553x1_0 : S6553.BroadcastsInDim S6553x1 (![0] : Fin 1 → Fin S6553x1.rank)
  concatenates_S6553x1_S6553x1_S6553x2_d1 : Shape.Concatenates [S6553x1, S6553x1] S6553x2 1
  transposes_S256x256_S256x256_1_0 : S256x256.Transposes [1, 0] S256x256
  bitsLt_bf16_f32 : FTy.bits .bf16 < FTy.bits .f32
  shapeCasts_S256_S1x256 : S256.ShapeCasts S1x256
  shapeCasts_S16x16384x256_S262144x256 : S16x16384x256.ShapeCasts S262144x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  shapeCasts_S262144x256_S16x16384x256 : S262144x256.ShapeCasts S16x16384x256
  scatter_S256x256_S6553x2_S6553_n_01_01_1_wf : ScatterDims.WF S256x256 S6553x2 S6553 [] [0, 1] [0, 1] 1
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S262144x256.size a
  hwx0_3 : ∀ i : grid0.Coords, EltTy.bits .f32 = 32 ∨ (Rect.block (s := S262144x256) S4096x256.size (cc0_transform_3 i) (hinb0_3 i)).WholeWords (EltTy.packing .f32)

variable [Facts₀]

def scatter_S256x256_S6553x2_S6553_n_01_01_1 : ScatterDims S256x256 S6553x2 S6553 where
  updateWindowDims := []
  insertedWindowDims := [0, 1]
  scatterDimsToOperandDims := [0, 1]
  indexVectorDim := 1
  wf := scatter_S256x256_S6553x2_S6553_n_01_01_1_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_v21) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S4096x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x16384x256 : Shape := ⟨3, ![16, 16384, 256]⟩
abbrev S256x256 : Shape := ⟨2, ![256, 256]⟩
abbrev S256 : Shape := ⟨1, ![256]⟩
abbrev S6553 : Shape := ⟨1, ![6553]⟩
abbrev S1x1x256 : Shape := ⟨3, ![1, 1, 256]⟩
abbrev S_ : Shape := ⟨0, ![]⟩
abbrev S6553x1 : Shape := ⟨2, ![6553, 1]⟩
abbrev S6553x2 : Shape := ⟨2, ![6553, 2]⟩

abbrev nBuf : Space → Nat
  | .hbm => 35
  | .vmem => 0
  | .smem => 0
  | _ => 0

abbrev bufTy : (tb : Table) → Fin (tcTables nBuf tb) → BufTy
  | .hbm, ⟨0, _⟩ => ⟨S16x16384x256, .f32⟩
  | .hbm, ⟨1, _⟩ => ⟨S256x256, .f32⟩
  | .hbm, ⟨2, _⟩ => ⟨S256, .f32⟩
  | .hbm, ⟨3, _⟩ => ⟨S6553, .i32⟩
  | .hbm, ⟨4, _⟩ => ⟨S6553, .i32⟩
  | .hbm, ⟨5, _⟩ => ⟨S6553, .f32⟩
  | .hbm, ⟨6, _⟩ => ⟨S16x16384x256, .f32⟩
  | .hbm, ⟨7, _⟩ => ⟨S1x1x256, .f32⟩
  | .hbm, ⟨8, _⟩ => ⟨S16x16384x256, .f32⟩
  | .hbm, ⟨9, _⟩ => ⟨S16x16384x256, .f32⟩
  | .hbm, ⟨10, _⟩ => ⟨S_, .f32⟩
  | .hbm, ⟨11, _⟩ => ⟨S256x256, .f32⟩
  | .hbm, ⟨12, _⟩ => ⟨S_, .i32⟩
  | .hbm, ⟨13, _⟩ => ⟨S6553, .i32⟩
  | .hbm, ⟨14, _⟩ => ⟨S6553, .i1⟩
  | .hbm, ⟨15, _⟩ => ⟨S_, .i32⟩
  | .hbm, ⟨16, _⟩ => ⟨S6553, .i32⟩
  | .hbm, ⟨17, _⟩ => ⟨S6553, .i32⟩
  | .hbm, ⟨18, _⟩ => ⟨S6553, .i32⟩
  | .hbm, ⟨19, _⟩ => ⟨S_, .i32⟩
  | .hbm, ⟨20, _⟩ => ⟨S6553, .i32⟩
  | .hbm, ⟨21, _⟩ => ⟨S6553, .i1⟩
  | .hbm, ⟨22, _⟩ => ⟨S_, .i32⟩
  | .hbm, ⟨23, _⟩ => ⟨S6553, .i32⟩
  | .hbm, ⟨24, _⟩ => ⟨S6553, .i32⟩
  | .hbm, ⟨25, _⟩ => ⟨S6553, .i32⟩
  | .hbm, ⟨26, _⟩ => ⟨S6553x1, .i32⟩
  | .hbm, ⟨27, _⟩ => ⟨S6553x1, .i32⟩
  | .hbm, ⟨28, _⟩ => ⟨S6553x2, .i32⟩
  | .hbm, ⟨29, _⟩ => ⟨S256x256, .f32⟩
  | .hbm, ⟨30, _⟩ => ⟨S16x16384x256, .f32⟩
  | .hbm, ⟨31, _⟩ => ⟨S_, .f32⟩
  | .hbm, ⟨32, _⟩ => ⟨S16x16384x256, .f32⟩
  | .hbm, ⟨33, _⟩ => ⟨S16x16384x256, .f32⟩
  | .hbm, ⟨34, _⟩ => ⟨S16x16384x256, .f32⟩
  | _, _ => ⟨S16x16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S16x16384x256_0_1_2 : S1x1x256.BroadcastsInDim S16x16384x256 (![0, 1, 2] : Fin 3 → Fin S16x16384x256.rank)
  bcast_S_S256x256 : S_.BroadcastsInDim S256x256 (![] : Fin 0 → Fin S256x256.rank)
  bcast_S_S6553 : S_.BroadcastsInDim S6553 (![] : Fin 0 → Fin S6553.rank)
  bcast_S6553_S6553x1_0 : S6553.BroadcastsInDim S6553x1 (![0] : Fin 1 → Fin S6553x1.rank)
  concatenates_S6553x1_S6553x1_S6553x2_d1 : Shape.Concatenates [S6553x1, S6553x1] S6553x2 1
  bcast_S_S16x16384x256 : S_.BroadcastsInDim S16x16384x256 (![] : Fin 0 → Fin S16x16384x256.rank)
  dot_S16x16384x256_S256x256_S16x16384x256_2_1_01_0_n_n_wf : DotDims.WF S16x16384x256 S256x256 S16x16384x256 [2] [1] [0, 1] [0] [] []
  scatter_S256x256_S6553x2_S6553_n_01_01_1_wf : ScatterDims.WF S256x256 S6553x2 S6553 [] [0, 1] [0, 1] 1

variable [Facts₀]

def dot_S16x16384x256_S256x256_S16x16384x256_2_1_01_0_n_n : DotDims S16x16384x256 S256x256 S16x16384x256 where
  lhsContracting := [2]
  rhsContracting := [1]
  lhsNonContracting := [0, 1]
  rhsNonContracting := [0]
  lhsBatch := []
  rhsBatch := []
  wf := dot_S16x16384x256_S256x256_S16x16384x256_2_1_01_0_n_n_wf
def scatter_S256x256_S6553x2_S6553_n_01_01_1 : ScatterDims S256x256 S6553x2 S6553 where
  updateWindowDims := []
  insertedWindowDims := [0, 1]
  scatterDimsToOperandDims := [0, 1]
  indexVectorDim := 1
  wf := scatter_S256x256_S6553x2_S6553_n_01_01_1_wf

class Facts : Prop extends Facts₀ where

variable [Facts]
-- ==== Proof.LibFinite.lean ====
/-
  Finite extended reals. An extended real is FINITE when it is a real number. Sums, products, maxima and quotients
  by a non-zero divisor of finite values are finite, and on finite values multiplication distributes over addition
  (on the extended reals it does not in general: `⊤ * (1 + -1) = 0` but `⊤ * 1 + ⊤ * -1 = ⊥`). The last section
  states the two laws a "dense combine" step needs: a sum of products against a sum of two matrices splits into two
  sums of products, and the regrouping of six summands that carries a combined bias to the two summands it belongs to.
-/
import Idealize.ShloMosaic.PureOps.Ideal.Laws

noncomputable section

namespace Cert.LibFinite

open Idealize.ShloMosaic

/-- `x` is a real number (neither `⊤` nor `⊥`). -/
def IsFin (x : EReal) : Prop := ∃ r : ℝ, x = (r : EReal)

namespace IsFin

theorem coe (r : ℝ) : IsFin (r : EReal) := ⟨r, rfl⟩
theorem zero : IsFin (0 : EReal) := ⟨0, rfl⟩
theorem one : IsFin (1 : EReal) := ⟨1, rfl⟩

theorem add {x y : EReal} (hx : IsFin x) (hy : IsFin y) : IsFin (x + y) := by
  obtain ⟨a, rfl⟩ := hx; obtain ⟨b, rfl⟩ := hy
  exact ⟨a + b, (EReal.coe_add a b).symm⟩

theorem mul {x y : EReal} (hx : IsFin x) (hy : IsFin y) : IsFin (x * y) := by
  obtain ⟨a, rfl⟩ := hx; obtain ⟨b, rfl⟩ := hy
  exact ⟨a * b, (EReal.coe_mul a b).symm⟩

theorem max {x y : EReal} (hx : IsFin x) (hy : IsFin y) : IsFin (max x y) := by
  obtain ⟨a, rfl⟩ := hx; obtain ⟨b, rfl⟩ := hy
  rcases le_total a b with h | h
  · rw [max_eq_right (EReal.coe_le_coe_iff.mpr h)]; exact ⟨b, rfl⟩
  · rw [max_eq_left (EReal.coe_le_coe_iff.mpr h)]; exact ⟨a, rfl⟩

theorem sum {ι : Type} (s : Finset ι) (f : ι → EReal) (h : ∀ i ∈ s, IsFin (f i)) : IsFin (∑ i ∈ s, f i) :=
  Finset.sum_induction f IsFin (fun _ _ => add) zero h

/-- The quotient of the ideal instance by a finite non-zero divisor. -/
theorem div {x y : EReal} (hx : IsFin x) (hy : IsFin y) (h0 : y ≠ 0) : IsFin (Ideal.div x y) := by
  obtain ⟨a, rfl⟩ := hx; obtain ⟨b, rfl⟩ := hy
  unfold Ideal.div
  rw [if_neg h0, ← EReal.coe_inv, ← EReal.coe_mul]
  exact ⟨_, rfl⟩

/-- A maximum against one is not zero (the divisor of a mean over a count that may be zero). -/
theorem max_one_ne_zero (x : EReal) : Max.max x 1 ≠ 0 :=
  ne_of_gt (lt_of_lt_of_le zero_lt_one (le_max_right x 1))

end IsFin

/-! ## The laws on finite values -/

/-- On finite values multiplication distributes over addition. -/
theorem mul_add_of_fin {x a b : EReal} (hx : IsFin x) (ha : IsFin a) (hb : IsFin b) : x * (a + b) = x * a + x * b := by
  obtain ⟨x, rfl⟩ := hx; obtain ⟨a, rfl⟩ := ha; obtain ⟨b, rfl⟩ := hb
  rw [← EReal.coe_add, ← EReal.coe_mul, ← EReal.coe_mul, ← EReal.coe_mul, ← EReal.coe_add, mul_add]

/-- A sum of products against a sum of two families splits, all factors finite: row `x` against the column of
    `A + B` is row `x` against the column of `A` plus row `x` against the column of `B`. -/
theorem sum_mul_add {ι : Type} [Fintype ι] (x a b : ι → EReal) (hx : ∀ k, IsFin (x k)) (ha : ∀ k, IsFin (a k))
    (hb : ∀ k, IsFin (b k)) : ∑ k, x k * (a k + b k) = ∑ k, x k * a k + ∑ k, x k * b k := by
  rw [← Finset.sum_add_distrib]
  exact Finset.sum_congr rfl fun k _ => mul_add_of_fin (hx k) (ha k) (hb k)

/-- Six summands regrouped: the two aggregated terms `P`, `Q`, the two self terms `X₀`, `X₃` and the two biases, summed
    as "(P + Q) + (X₀ + X₃) + (b₀ + b₃)", are the sum of the two relations' own "(P + b₀) + X₀" and "(Q + b₃) + X₃".
    Addition of extended reals is commutative and associative everywhere, so no finiteness is needed. -/
theorem combine_regroup (P Q X₀ X₃ b₀ b₃ : EReal) :
    P + Q + (X₀ + X₃) + (b₀ + b₃) = (P + b₀ + X₀) + (Q + b₃ + X₃) := by
  abel

end Cert.LibFinite

end
-- ==== Proof.Finite.lean ====
/-
  What the precondition says. The precondition is the conjunction, over the four float arguments, of "every entry has
  absolute value below +∞". On the extended reals |a| = max a (-a), and max a (-a) < ⊤ excludes exactly a = ⊤ and
  a = ⊥: the entry is a real number. Read back through the four "all" reductions and the three conjunctions, the
  precondition gives: every entry of the activations, of the dense weight, of the bias and of the scattered values is
  a real number.
-/
import proofs.«127691_j6330781794646_2_alg».proof.Pre_finite_inputs
import proofs.«127691_j6330781794646_2_alg».proof.Proof.LibFinite
import Idealize.ShloMosaic.Lib.ReduceAll
import Idealize.ShloMosaic.Lib.ValueIdx
import Idealize.ShloMosaic.PureOps.Ideal.Laws

noncomputable section

namespace Cert.Finite

open Idealize.ShloMosaic Cert.LibFinite

/-- An extended real whose absolute value is below +∞ is a real number. -/
theorem isFin_of_abs_lt_top (a : EReal) (h : max a (-a) < ⊤) : IsFin a := by
  induction a using EReal.rec with
  | bot => simp at h
  | coe r => exact ⟨r, rfl⟩
  | top => simp at h

/-- The word the precondition compares against denotes +∞. -/
theorem inf_word : Ideal.ofBits .f32 0x7F800000#32 = (⊤ : EReal) := by simp [Ideal.ofBits, Ideal.ieee]

/-- One entry: the comparison "|a| < +∞" coming out true says `a` is a real number. -/
theorem isFin_of_cmp (a : Ideal .f32)
    (h : FloatOps.cmpf .olt (FloatOps.hostAbsf a) (Ideal.ofBits .f32 0x7F800000#32) = 1#1) : IsFin a := by
  rw [Ideal.hostAbsf_def, Ideal.cmpf_def, Ideal.absf_def, inf_word] at h
  unfold Ideal.cmp at h
  refine isFin_of_abs_lt_top a ?_
  by_contra hn
  simp [hn] at h

section
variable [Cert.Pre_finite_inputs.Facts]
open Cert.Pre_finite_inputs Cert.Pre_finite_inputs.Facts

instance : Subsingleton S_.Idx := ⟨fun a b => funext fun d => d.elim0⟩

/-- The precondition, read back: every entry of the four float arguments is a real number. -/
theorem fin_of_pre (x : FVec Ideal S16x16384x256 .f32) (W : FVec Ideal S256x256 .f32) (β : FVec Ideal S256 .f32)
    (rows cols : IVec S6553 32) (v : FVec Ideal S6553 .f32)
    (h : fn (F := Ideal) x W β rows cols v = fun _ => 1#1) :
    (∀ i, IsFin (x i)) ∧ (∀ i, IsFin (W i)) ∧ (∀ i, IsFin (β i)) ∧ (∀ i, IsFin (v i)) := by
  have h0 := congrFun h ValueIdx.ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨fun i => isFin_of_cmp (x i) (Host.reduce_andi_all _ _ _ _ _ h1 i),
    fun i => isFin_of_cmp (W i) (Host.reduce_andi_all _ _ _ _ _ h2 i),
    fun i => isFin_of_cmp (β i) (Host.reduce_andi_all _ _ _ _ _ h3 i),
    fun i => isFin_of_cmp (v i) (Host.reduce_andi_all _ _ _ _ _ h4 i)⟩

end

end Cert.Finite

end
-- ==== Proof.Spec.lean ====
/-
  A dense layer with a sparse correction, in two arrangements. Given rows x[b, s, ·] of length 256, a dense weight
  W[o, ·], a correction R[o, ·] of the same shape, a scalar c and a bias β[o]:

    fused  :  out[b, s, o] = Σ_k x[b, s, k] · (W[o, k] + c · R[o, k])  +  β[o]
    split  :  out[b, s, o] = (Σ_k x[b, s, k] · W[o, k]  +  β[o])  +  (Σ_k x[b, s, k] · R[o, k]) · c

  The first folds the correction into the weight and takes one product; the second takes two products and adds the
  scaled second one at the end. They agree when x, W, R and c are real numbers: the step from one to the other is
  x · (w + c · r) = x · w + x · (c · r) under the sum, and pulling the constant c out of a sum — both are
  distributivity, which on the extended reals fails at the infinities (a sum ⊤ + ⊥ collapses to ⊥), so finiteness
  of the factors is a real hypothesis here. The bias only moves past a sum (addition is commutative and associative
  on all extended reals), so nothing is asked of it.
-/
import proofs.«127691_j6330781794646_2_alg».proof.Proof.LibFinite
import Idealize.ShloMosaic.Lib.ValueIdx

noncomputable section

namespace Cert.Spec

open Idealize.ShloMosaic Idealize.ShloMosaic.ValueIdx Cert.LibFinite

/-- The activations: batch × sequence × feature. -/
abbrev SX : Shape := ⟨3, ![16, 16384, 256]⟩
/-- A weight: output feature × input feature. -/
abbrev SW : Shape := ⟨2, ![256, 256]⟩
/-- The bias: output feature. -/
abbrev SB : Shape := ⟨1, ![256]⟩

/-- One product against the combined weight `W + c · R`, then the bias. -/
def fused (c : EReal) (x : SX.Idx → EReal) (W R : SW.Idx → EReal) (β : SB.Idx → EReal) : SX.Idx → EReal :=
  fun i => (∑ k : Fin 256, x (ix3 (i 0) (i 1) k) * (W (ix2 (i 2) k) + c * R (ix2 (i 2) k))) + β (ix1 (i 2))

/-- The product against `W` plus the bias, plus the product against `R` scaled by `c`. -/
def split (c : EReal) (x : SX.Idx → EReal) (W R : SW.Idx → EReal) (β : SB.Idx → EReal) : SX.Idx → EReal :=
  fun i => ((∑ k : Fin 256, x (ix3 (i 0) (i 1) k) * W (ix2 (i 2) k)) + β (ix1 (i 2)))
    + (∑ k : Fin 256, x (ix3 (i 0) (i 1) k) * R (ix2 (i 2) k)) * c

/-- A finite sum of finite values times a finite constant is the sum of the products. -/
theorem sum_mul_of_fin {ι : Type} (s : Finset ι) (f : ι → EReal) (c : EReal) (hf : ∀ i ∈ s, IsFin (f i)) (hc : IsFin c) :
    (∑ i ∈ s, f i) * c = ∑ i ∈ s, f i * c := by
  classical
  induction s using Finset.induction_on with
  | empty => simp
  | insert a s ha ih =>
    have hs : ∀ i ∈ s, IsFin (f i) := fun i hi => hf i (Finset.mem_insert_of_mem hi)
    rw [Finset.sum_insert ha, Finset.sum_insert ha, mul_comm,
      mul_add_of_fin hc (hf a (Finset.mem_insert_self a s)) (IsFin.sum s f hs), mul_comm c, mul_comm c, ih hs]

/-- The row against the scaled correction is the row against the correction, scaled: x · (c · r) summed is (Σ x · r) · c. -/
theorem sum_mul_scaled (x r : Fin 256 → EReal) (c : EReal) (hx : ∀ k, IsFin (x k)) (hr : ∀ k, IsFin (r k)) (hc : IsFin c) :
    ∑ k, x k * (c * r k) = (∑ k, x k * r k) * c := by
  rw [sum_mul_of_fin Finset.univ (fun k => x k * r k) c (fun k _ => (hx k).mul (hr k)) hc]
  exact Finset.sum_congr rfl fun k _ => by rw [mul_comm c (r k), mul_assoc]

/-- The two arrangements agree on real data. -/
theorem fused_eq_split (c : EReal) (x : SX.Idx → EReal) (W R : SW.Idx → EReal) (β : SB.Idx → EReal)
    (hc : IsFin c) (hx : ∀ i, IsFin (x i)) (hW : ∀ i, IsFin (W i)) (hR : ∀ i, IsFin (R i)) :
    fused c x W R β = split c x W R β := by
  funext i
  unfold fused split
  rw [sum_mul_add (fun k => x (ix3 (i 0) (i 1) k)) (fun k => W (ix2 (i 2) k)) (fun k => c * R (ix2 (i 2) k))
      (fun k => hx _) (fun k => hW _) (fun k => hc.mul (hR _)),
    sum_mul_scaled (fun k => x (ix3 (i 0) (i 1) k)) (fun k => R (ix2 (i 2) k)) c (fun k => hx _) (fun k => hR _) hc]
  exact add_right_comm _ _ _

end Cert.Spec

end
-- ==== Proof.RefSplit.lean ====
/-
  The reference program, read index by index, is the "split" arrangement: at [b, s, o] the row x[b, s, ·] against
  row o of the dense weight, plus the bias at o, plus the row against row o of the scattered correction, times the
  constant 0.1. Every operation of the reference is read at one index — the two contractions as sums over the
  contracted feature k, the bias through its two broadcasts, the constant through its broadcast — and the composed
  index functions are the coordinates (b, s, k), (o, k) and (o).
-/
import proofs.«127691_j6330781794646_2_alg».proof.Proof.Gen.ReferenceIdeal.Read
import proofs.«127691_j6330781794646_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.Spec

/-- The reference's result is `split` of its arguments, with the correction the scatter of the values at the
    (normalised) row and column indices into zeros and the constant the word of 0.1. -/
theorem ref_is_split (x0 : (⟨S16x16384x256, .f32⟩ : BufTy).Contents (Elt Ideal)) (x1 : (⟨S256x256, .f32⟩ : BufTy).Contents (Elt Ideal))
    (x2 : (⟨S256, .f32⟩ : BufTy).Contents (Elt Ideal)) (x3 x4 : (⟨S6553, .i32⟩ : BufTy).Contents (Elt Ideal))
    (x5 : (⟨S6553, .f32⟩ : BufTy).Contents (Elt Ideal)) :
    val_main_v22 (F := Ideal) x0 x1 x2 x3 x4 x5
      = split (Ideal.ofBits .f32 0x3DCCCCCD#32) x0 x1 (val_main_v18 (F := Ideal) x3 x4 x5) x2 := by
  funext i
  have el : ∀ k, lidx_main_v0 i k = ix3 (i 0) (i 1) k := fun k => funext fun a => Fin.ext (by
    match a with | ⟨0, _⟩ => rfl | ⟨1, _⟩ => rfl | ⟨2, _⟩ => rfl)
  have er : ∀ k, ridx_main_v0 i k = ix2 (i 2) k := fun k => funext fun a => Fin.ext (by
    match a with | ⟨0, _⟩ => rfl | ⟨1, _⟩ => rfl)
  have el' : ∀ k, lidx_main_v19 i k = ix3 (i 0) (i 1) k := fun k => funext fun a => Fin.ext (by
    match a with | ⟨0, _⟩ => rfl | ⟨1, _⟩ => rfl | ⟨2, _⟩ => rfl)
  have er' : ∀ k, ridx_main_v19 i k = ix2 (i 2) k := fun k => funext fun a => Fin.ext (by
    match a with | ⟨0, _⟩ => rfl | ⟨1, _⟩ => rfl)
  have eb : idx_main_v1 (idx_main_v2 i) = ix1 (i 2) := funext fun a => Fin.ext (by
    match a with | ⟨0, _⟩ => rfl)
  rw [val_main_v22_apply, val_main_v3_apply, val_main_v0_apply, val_main_v2_apply, val_main_v1_apply, val_main_v21_apply,
    val_main_v19_apply, val_main_v20_apply, val_main_cst_3_apply]
  simp only [el, er, el', er', eb]
  rfl

end Cert.ReferenceIdeal.RefValue

end
-- ==== Proof.KernelHost.lean ====
/-
  What the region finds in the three arrays it stages, as functions of the program's arguments. Before the region the
  program builds, with ordinary array operations:

    * the correction R: the values scattered (set semantics) into a 256 × 256 array of zeros at (row, column) pairs,
      a negative index first moved up by 256;
    * the combined weight, transposed: entry (k, o) is W[o, k] + c · R[o, k], with c the constant 0.1 as a 32-bit float;
      its change of float format is the identity on extended reals;
    * the bias as one row [1, 256];
    * the activations flattened to [16 · 16384, 256].

  Each is the composition of the operations that write it, read off the program's list of host operations.
-/
import proofs.«127691_j6330781794646_2_alg».proof.Proof.Gen.KernelIdeal.Frame
import Idealize.ShloMosaic.Lib.StableHlo.Run
import Idealize.ShloMosaic.PureOps.Ideal.Laws

noncomputable section

namespace Cert.KernelIdeal.Host

open Cert.KernelIdeal Cert.KernelIdeal.Gen
open Idealize.ShloMosaic Idealize.ShloMosaic.TcCoe Idealize.SL.Sem Idealize.ShloMosaic.StableHlo

/-- An index array with its negative entries moved up by 256 (an index counted from the end). -/
def wrapped (ix : IVec S6553 32) : IVec S6553 32 :=
  select (cmpi .slt ix (broadcastInDim S6553 ![] bcast_S_S6553 (constantI S_ 32 0#32)))
    (addi ix (broadcastInDim S6553 ![] bcast_S_S6553 (constantI S_ 32 256#32))) ix

/-- The (row, column) pairs the values are scattered at: the two wrapped index arrays side by side. -/
def pairs (rows cols : IVec S6553 32) : IVec S6553x2 32 :=
  concatenate S6553x2 1 [⟨S6553x1, broadcastInDim S6553x1 ![0] bcast_S6553_S6553x1_0 (wrapped rows)⟩,
    ⟨S6553x1, broadcastInDim S6553x1 ![0] bcast_S6553_S6553x1_0 (wrapped cols)⟩] concatenates_S6553x1_S6553x1_S6553x2_d1

/-- The correction: the values set into zeros at the pairs. -/
def correction (rows cols : IVec S6553 32) (vals : FVec Ideal S6553 .f32) : FVec Ideal S256x256 .f32 :=
  Host.scatter scatter_S256x256_S6553x2_S6553_n_01_01_1 (fun _ b => b)
    (broadcastInDim S256x256 ![] bcast_S_S256x256 (constant (F := Ideal) S_ .f32 0x00000000#32)) (pairs rows cols) vals

/-- The combined weight `W + c · R`, output feature × input feature. -/
def combined (W : FVec Ideal S256x256 .f32) (rows cols : IVec S6553 32) (vals : FVec Ideal S6553 .f32) : FVec Ideal S256x256 .f32 :=
  addf W (mulf (broadcastInDim S256x256 ![] bcast_S_S256x256 (constant (F := Ideal) S_ .f32 0x3DCCCCCD#32)) (correction rows cols vals))

variable (m : (ℓ : Loc nD τ sig) → Buf (Elt Ideal) ℓ)

/-- The first staged array: the activations, flattened. -/
theorem rows_eq (c : Dev nD) : (V m c main_v21 : S262144x256.Idx → EReal)
    = shapeCast S262144x256 (m ((c : Thread nD τ).loc main_arg0)) shapeCasts_S16x16384x256_S262144x256 := by
  show StableHlo.after hostOps0 (fun b => m (c, b)) (Proc.devRef .tc main_v21) = _
  after_results <;> rfl

set_option maxHeartbeats 2000000 in
/-- The second staged array: the combined weight, transposed. -/
theorem weight_eq (c : Dev nD) : (V m c main_v19 : S256x256.Idx → EReal)
    = truncf .bf16 (transpose S256x256 [1, 0] (combined (m ((c : Thread nD τ).loc main_arg1)) (m ((c : Thread nD τ).loc main_arg3))
        (m ((c : Thread nD τ).loc main_arg4)) (m ((c : Thread nD τ).loc main_arg5))) transposes_S256x256_S256x256_1_0) bitsLt_bf16_f32 := by
  show StableHlo.after hostOps0 (fun b => m (c, b)) (Proc.devRef .tc main_v19) = _
  after_results <;> rfl

/-- The third staged array: the bias as one row. -/
theorem bias_eq (c : Dev nD) : (V m c main_v20 : S1x256.Idx → EReal)
    = shapeCast S1x256 (m ((c : Thread nD τ).loc main_arg2)) shapeCasts_S256_S1x256 := by
  show StableHlo.after hostOps0 (fun b => m (c, b)) (Proc.devRef .tc main_v20) = _
  after_results <;> rfl

end Cert.KernelIdeal.Host

end
-- ==== Proof.KernelPoint.lean ====
/-
  The kernel body at one entry of its output block. The body takes a block of 4096 rows of the flattened activations,
  the whole 256 × 256 combined weight (already transposed: input feature × output feature) and the bias as one row,
  and stores product + bias. At row p and output feature o of the block that is

      Σ_k rows[p, k] · weight[k, o]  +  bias[0, o]:

  the product into a zero accumulator is the plain sum over the contracted feature k, the two changes of float format
  are the identity on extended reals, the casts of a block to its own shape do nothing, and the one bias row is read at
  o whatever the row p.
-/
import proofs.«127691_j6330781794646_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Point

open Cert.KernelIdeal Cert.KernelIdeal.Gen
open Idealize.ShloMosaic Idealize.ShloMosaic.ValueIdx

/-! ## The product's operand indices, coordinate by coordinate

The left operand is read at (output row, k), the right operand at (k, output column). -/

theorem lhs_row (j : S4096x256.Idx) (q : dot_S4096x256_S256x256_S4096x256_1_0_0_1_n_n.contr.Idx) :
    (dot_S4096x256_S256x256_S4096x256_1_0_0_1_n_n.lhsIdx j q 0).val = (j 0).val := by
  unfold DotDims.lhsIdx
  rw [dif_neg (show ¬(0 : Fin S4096x256.rank) ∈ dot_S4096x256_S256x256_S4096x256_1_0_0_1_n_n.lhsBatch by decide),
    dif_pos (show (0 : Fin S4096x256.rank) ∈ dot_S4096x256_S256x256_S4096x256_1_0_0_1_n_n.lhsNonContracting by decide)]
  rfl

theorem lhs_contr (j : S4096x256.Idx) (q : dot_S4096x256_S256x256_S4096x256_1_0_0_1_n_n.contr.Idx) :
    (dot_S4096x256_S256x256_S4096x256_1_0_0_1_n_n.lhsIdx j q 1).val = (q ⟨0, by decide⟩).val :=
  dot_S4096x256_S256x256_S4096x256_1_0_0_1_n_n.lhsIdx_val_of_single rfl j q

theorem rhs_contr (j : S4096x256.Idx) (q : dot_S4096x256_S256x256_S4096x256_1_0_0_1_n_n.contr.Idx) :
    (dot_S4096x256_S256x256_S4096x256_1_0_0_1_n_n.rhsIdx j q 0).val = (q ⟨0, by decide⟩).val :=
  dot_S4096x256_S256x256_S4096x256_1_0_0_1_n_n.rhsIdx_val_of_single rfl j q

theorem rhs_col (j : S4096x256.Idx) (q : dot_S4096x256_S256x256_S4096x256_1_0_0_1_n_n.contr.Idx) :
    (dot_S4096x256_S256x256_S4096x256_1_0_0_1_n_n.rhsIdx j q 1).val = (j 1).val := by
  unfold DotDims.rhsIdx
  rw [dif_neg (show ¬(1 : Fin S256x256.rank) ∈ dot_S4096x256_S256x256_S4096x256_1_0_0_1_n_n.rhsBatch by decide),
    dif_pos (show (1 : Fin S256x256.rank) ∈ dot_S4096x256_S256x256_S4096x256_1_0_0_1_n_n.rhsNonContracting by decide)]
  rfl

/-! ## The product block at an entry -/

/-- A 4096 × 256 block times a 256 × 256 matrix into a zero accumulator, at (p, o): the sum over k. -/
theorem product_apply (a : FVec Ideal S4096x256 .bf16) (b : FVec Ideal S256x256 .bf16) (p : Fin 4096) (o : Fin 256) :
    matmul dot_S4096x256_S256x256_S4096x256_1_0_0_1_n_n none a b (constant (F := Ideal) S4096x256 .f32 0x00000000#32) (ix2 p o)
      = ∑ k : Fin 256, a (ix2 p k) * b (ix2 k o) := by
  refine (Ideal.matmul_constant_zero_apply dot_S4096x256_S256x256_S4096x256_1_0_0_1_n_n none a b (ix2 p o)).trans ?_
  rw [← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 p o)
      ((contrEquiv1 dot_S4096x256_S256x256_S4096x256_1_0_0_1_n_n 256 rfl rfl).symm k) = ix2 p k :=
    funext fun c => Fin.ext (by
      match c with
      | ⟨0, _⟩ => exact lhs_row _ _
      | ⟨1, _⟩ => exact (lhs_contr _ _).trans hk)
  have er : dot_S4096x256_S256x256_S4096x256_1_0_0_1_n_n.rhsIdx (ix2 p o)
      ((contrEquiv1 dot_S4096x256_S256x256_S4096x256_1_0_0_1_n_n 256 rfl rfl).symm k) = ix2 k o :=
    funext fun c => Fin.ext (by
      match c with
      | ⟨0, _⟩ => exact (rhs_contr _ _).trans hk
      | ⟨1, _⟩ => exact rhs_col _ _)
  rw [el, er]

/-! ## The stored value at an entry -/

/-- What the body stores at row `p`, output feature `o` of its block, from the three blocks it loads. -/
theorem stored_apply (x0 : Vec Ideal S4096x256 .f32) (x1 : Vec Ideal S256x256 .bf16) (x2 : Vec Ideal S1x256 .f32)
    (p : Fin 4096) (o : Fin 256) :
    k0_pay1 (F := Ideal) x0 x1 x2 (ix2 p o) = (∑ k : Fin 256, x0 (ix2 p k) * x1 (ix2 k o)) + x2 (ix2 (0 : Fin 1) o) := by
  unfold k0_pay1
  show matmul dot_S4096x256_S256x256_S4096x256_1_0_0_1_n_n none
        (truncf .bf16 (shapeCast S4096x256 x0 shapeCasts_S4096x256_S4096x256) bitsLt_bf16_f32)
        (shapeCast S256x256 x1 shapeCasts_S256x256_S256x256) (constant (F := Ideal) S4096x256 .f32 0x00000000#32) (ix2 p o)
      + broadcastTo S4096x256 (shapeCast S1x256 x2 shapeCasts_S1x256_S1x256) broadcasts_S1x256_S4096x256 (ix2 p o) = _
  rw [shapeCast_self, shapeCast_self, shapeCast_self]
  refine congrArg₂ (· + ·) ?_ ?_
  · exact product_apply _ _ p o
  · exact broadcastTo_1b_ab_apply x2 broadcasts_S1x256_S4096x256 p o

end Cert.KernelIdeal.Point

end
-- ==== Proof.KernelArray.lean ====
/-
  From blocks to the array. The region runs the body at 64 points; point t stages rows 4096·t … 4096·t + 4095 of the
  flattened activations, the whole transposed weight and the whole bias row, and writes back rows 4096·t … of the
  result. So what point t writes back is block t of ONE function of the three staged arrays,

      flat[r, o] = Σ_k rows[r, k] · weight[k, o] + bias[0, o],

  and since the 64 blocks tile the 262144 rows (row r lies in block r / 4096), the result array after the region is
  `flat` everywhere.
-/
import proofs.«127691_j6330781794646_2_alg».proof.Proof.Gen.KernelIdeal.Frame
import proofs.«127691_j6330781794646_2_alg».proof.Proof.KernelPoint
import Idealize.ShloMosaic.Lib.Pipeline.Value

set_option maxRecDepth 16384

noncomputable section

namespace Cert.KernelIdeal.Arr

open Cert.KernelIdeal Cert.KernelIdeal.Gen
open Idealize.ShloMosaic Idealize.ShloMosaic.TcCoe Idealize.SL.Sem Idealize.ShloMosaic.ValueIdx
open Idealize.ShloMosaic.Pipeline (Dat)

/-- The result at flattened row `r`, output feature `o`, from the three staged arrays. -/
def flatAt (X : S262144x256.Idx → EReal) (Wt : S256x256.Idx → EReal) (B : S1x256.Idx → EReal) (r : Fin 262144) (o : Fin 256) : EReal :=
  (∑ k : Fin 256, X (ix2 r k) * Wt (ix2 k o)) + B (ix2 (0 : Fin 1) o)

/-- The flattened result as one function on the whole [262144, 256] array. -/
def flat (X : S262144x256.Idx → EReal) (Wt : S256x256.Idx → EReal) (B : S1x256.Idx → EReal) : S262144x256.Idx → EReal :=
  fun j => flatAt X Wt B ⟨(j 0).val, (j 0).isLt⟩ ⟨(j 1).val, (j 1).isLt⟩

/-- One entry: if the three loaded blocks agree with the staged arrays where the entry reads them — row `p` of the
    activation block is row `r` of the array, the weight column and the bias entry are the arrays' own — the stored
    value is `flatAt` at (r, o). -/
theorem entry_value (X : S262144x256.Idx → EReal) (Wt : S256x256.Idx → EReal) (B : S1x256.Idx → EReal)
    (x0 : Vec Ideal S4096x256 .f32) (x1 : Vec Ideal S256x256 .bf16) (x2 : Vec Ideal S1x256 .f32)
    (p : Fin 4096) (o : Fin 256) (r : Fin 262144)
    (h0 : ∀ k : Fin 256, x0 (ix2 p k) = X (ix2 r k))
    (h1 : ∀ k : Fin 256, x1 (ix2 k o) = Wt (ix2 k o))
    (h2 : x2 (ix2 (0 : Fin 1) o) = B (ix2 (0 : Fin 1) o)) :
    k0_pay1 (F := Ideal) x0 x1 x2 (ix2 p o) = flatAt X Wt B r o := by
  rw [Point.stored_apply, h2]
  unfold flatAt
  exact congrArg (· + B (ix2 (0 : Fin 1) o)) (Finset.sum_congr rfl fun k _ => by rw [h0 k, h1 k])

variable (m : (ℓ : Loc nD τ sig) → Buf (Elt Ideal) ℓ)

theorem zero_offsets : (![0, 0] : Fin 2 → Nat) = fun _ => 0 := funext fun a => by fin_cases a <;> rfl

/-- The block index maps, decided over the 64 points: the activations' and the result's blocks are block `t` of the
    rows; the weight and the bias are always their one whole block. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 64 := Nat.lt_of_lt_of_eq t.isLt N_0

/-- What point `t` writes back is block `t` of `flat` of the three arrays as the region finds them. -/
theorem flushed_eq (c : Dev nD) (t : Fin cfg0.N) :
    (dats m 0 c).flushed 3 t
      = ((cfg0.win 3).blk t).view.read (Elt Ideal) (flat (V m c main_v21) (V m c main_v19) (V m c main_v20)) := by
  show (cfg0.win 3).cut (grid0.coords t) ((dats m 0 c).after 3 t) = _
  rw [after0_3]
  unfold out0_3
  rw [View.canon_unit_zero zero_offsets]
  simp only [View.ld_unit_zero (S := S4096x256) zero_offsets, View.ld_unit_zero (S := S256x256) zero_offsets,
    View.ld_unit_zero (S := S1x256) zero_offsets]
  obtain ⟨e00, e01, e10, e11, e20, e21, e30, e31⟩ := index_maps t
  have ht := point_lt t
  funext y
  obtain ⟨p, o, rfl⟩ : ∃ (p : Fin 4096) (o : Fin 256), y = ix2 p o := ⟨y 0, y 1, eq_ix2 y⟩
  have hp := p.isLt
  have ho := o.isLt
  refine (entry_value (V m c main_v21) (V m c main_v19) (V m c main_v20) (iblk m c 0 t) (iblk m c 1 t) (iblk m c 2 t) p o
    ⟨t.val * 4096 + p.val, by omega⟩ ?_ ?_ ?_).trans ?_
  · intro k
    have hk := k.isLt
    show V m c main_v21 (((cfg0.win 0).blk t).view.emb (ix2 p k)) = V m c main_v21 (ix2 ⟨t.val * 4096 + p.val, by omega⟩ k)
    refine congrArg (V m c main_v21) (funext fun a => Fin.ext ?_)
    match a with
    | ⟨0, _⟩ => show win0_0.index t (0 : Fin 2) * 4096 + 1 * p.val = t.val * 4096 + p.val; omega
    | ⟨1, _⟩ => show win0_0.index t (1 : Fin 2) * 256 + 1 * k.val = k.val; omega
  · intro k
    have hk := k.isLt
    show V m c main_v19 (((cfg0.win 1).blk t).view.emb (ix2 k o)) = V m c main_v19 (ix2 k o)
    refine congrArg (V m c main_v19) (funext fun a => Fin.ext ?_)
    match a with
    | ⟨0, _⟩ => show win0_1.index t (0 : Fin 2) * 256 + 1 * k.val = k.val; omega
    | ⟨1, _⟩ => show win0_1.index t (1 : Fin 2) * 256 + 1 * o.val = o.val; omega
  · show V m c main_v20 (((cfg0.win 2).blk t).view.emb (ix2 (0 : Fin 1) o)) = V m c main_v20 (ix2 (0 : Fin 1) o)
    refine congrArg (V m c main_v20) (funext fun a => Fin.ext ?_)
    match a with
    | ⟨0, _⟩ => show win0_2.index t (0 : Fin 2) * 1 + 1 * 0 = 0; omega
    | ⟨1, _⟩ => show win0_2.index t (1 : Fin 2) * 256 + 1 * o.val = o.val; omega
  · show flatAt _ _ _ _ _ = flatAt _ _ _ _ _
    refine congrArg₂ (flatAt (V m c main_v21) (V m c main_v19) (V m c main_v20)) (Fin.ext ?_) (Fin.ext ?_)
    · show t.val * 4096 + p.val = win0_3.index t (0 : Fin 2) * 4096 + 1 * p.val; omega
    · show o.val = win0_3.index t (1 : Fin 2) * 256 + 1 * o.val; omega

/-- An index of the result array is in point `t`'s block iff each coordinate is in the block's range on its axis. -/
theorem mem_blk (t : Fin cfg0.N) (i : S262144x256.Idx) :
    i ∈ ((cfg0.win 3).blk t).view.set ↔ ∀ a : Fin 2, win0_3.index t a * S4096x256.size a ≤ (i a).val
      ∧ (i a).val < win0_3.index t a * S4096x256.size a + S4096x256.size a := by
  show i ∈ ((View.whole main_v22).slice (win0_3.rect t)).set ↔ _
  rw [View.set_slice_whole, Rect.mem_set_unit]
  exact Iff.rfl

/-- The blocks tile the array: row `r` is in the block of point `r / 4096`. -/
theorem cover (i : S262144x256.Idx) : ∃ t : Fin cfg0.N, (cfg0.win 3).flush t = true ∧ i ∈ ((cfg0.win 3).blk t).view.set := by
  have hi0 : (i 0).val < 262144 := (i 0).isLt
  have hi1 : (i 1).val < 256 := (i 1).isLt
  obtain ⟨t, ht⟩ : ∃ t : Fin cfg0.N, t.val = (i 0).val / 4096 :=
    ⟨⟨(i 0).val / 4096, by show (i 0).val / 4096 < grid0.N; rw [N_0]; omega⟩, rfl⟩
  obtain ⟨-, -, -, -, -, -, e30, e31⟩ := index_maps t
  refine ⟨t, flush0_3 t, ?_⟩
  rw [mem_blk]
  intro a
  match a with
  | ⟨0, _⟩ =>
    show win0_3.index t (0 : Fin 2) * 4096 ≤ (i 0).val ∧ (i 0).val < win0_3.index t (0 : Fin 2) * 4096 + 4096
    omega
  | ⟨1, _⟩ =>
    show win0_3.index t (1 : Fin 2) * 256 ≤ (i 1).val ∧ (i 1).val < win0_3.index t (1 : Fin 2) * 256 + 256
    omega

/-- The result array after the region: `flat` of the three staged arrays. -/
theorem region_array (c : Dev nD) :
    (dats m 0 c).arrAt 3 cfg0.N = flat (V m c main_v21) (V m c main_v19) (V m c main_v20) :=
  (dats m 0 c).arrAt_eq_of_cover 3 _ (fun t _ => flushed_eq m c t) cover

end Cert.KernelIdeal.Arr

end
-- ==== Proof.LibScatter.lean ====
/-
  A scatter whose body returns the update ("set" semantics). The result is built from the operand by going through the
  updates in order; each update either lands on one entry of the operand, which it replaces, or falls outside the
  operand and is dropped. So every entry of the result is an entry of the operand or one of the updates — whatever the
  scatter indices are, in or out of range, repeated or not — and a property that holds of every entry of the operand
  and of every update holds of every entry of the result.
-/
import Idealize.ShloMosaic.PureOps

noncomputable section

namespace Cert.LibScatter

open Idealize.ShloMosaic

/-- A property of every entry of the operand and of every update is a property of every entry of the scattered
    result, for any scatter indices (set semantics: the body returns the update). -/
theorem scatter_set_forall {α : Type} {s si u : Shape} {w : Nat} (d : ScatterDims s si u) (P : α → Prop)
    (x : s.Idx → α) (idx : IVec si w) (upd : u.Idx → α) (hx : ∀ i, P (x i)) (hu : ∀ j, P (upd j)) :
    ∀ i, P (Host.scatter d (fun _ b => b) x idx upd i) := by
  unfold Host.scatter
  -- the invariant of the fold over the updates: every entry of the accumulated array has the property
  suffices h : ∀ (l : List (Fin u.numel)) (r : s.Idx → α), (∀ i, P (r i)) →
      ∀ i, P (l.foldl (fun r n =>
        match d.resultIdx? (u.rowMajor.symm n) idx with
        | some i => fun i' => if i' = i then (fun _ b => b) (r i) (upd (u.rowMajor.symm n)) else r i'
        | none => r) r i) from h _ x hx
  intro l
  induction l with
  | nil => intro r hr; exact hr
  | cons n l ih =>
    intro r hr
    rw [List.foldl_cons]
    refine ih _ ?_
    intro i'
    cases d.resultIdx? (u.rowMajor.symm n) idx with
    | none => exact hr i'
    | some i =>
      show P (if i' = i then upd (u.rowMajor.symm n) else r i')
      by_cases h : i' = i
      · rw [if_pos h]; exact hu _
      · rw [if_neg h]; exact hr i'

end Cert.LibScatter

end
-- ==== Proof.KernelResult.lean ====
/-
  The kernel program's result. After the region the program reshapes the [262144, 256] result to [16, 16384, 256]:
  entry [b, s, o] is row b · 16384 + s, column o of the flattened result. Reading the three staged arrays back to the
  arguments — the flattened activations at row b · 16384 + s are x[b, s, ·], the transposed combined weight at (k, o)
  is W[o, k] + c · R[o, k], the bias row at o is β[o] — the result is the "fused" arrangement of the specification.

  The correction R is a scatter of the values into zeros, so each of its entries is zero or one of the values: it is
  made of real numbers when the values are. The constant c is a finite float.
-/
import proofs.«127691_j6330781794646_2_alg».proof.Proof.KernelHost
import proofs.«127691_j6330781794646_2_alg».proof.Proof.KernelArray
import proofs.«127691_j6330781794646_2_alg».proof.Proof.Spec
import proofs.«127691_j6330781794646_2_alg».proof.Proof.LibScatter
import Idealize.ShloMosaic.Lib.ValueLayout

set_option maxRecDepth 16384

noncomputable section

namespace Cert.KernelIdeal.Result

open Cert.KernelIdeal Cert.KernelIdeal.Gen Cert.KernelIdeal.Host Cert.KernelIdeal.Arr
open Idealize.ShloMosaic Idealize.ShloMosaic.TcCoe Idealize.SL.Sem Idealize.ShloMosaic.ValueIdx Idealize.ShloMosaic.StableHlo
open Cert.LibFinite

/-! ## Finiteness of the two operands the precondition does not name -/

/-- The constant 0.1, as a 32-bit float, is a real number (its exponent field is not all ones). -/
theorem tenth_fin : IsFin (Ideal.ofBits .f32 0x3DCCCCCD#32) := by
  show IsFin (Ideal.ieee 8 23 (0x3DCCCCCD#32 : BitVec 32))
  unfold Ideal.ieee
  dsimp only
  rw [if_neg (by decide), if_neg (by decide)]
  exact ⟨_, rfl⟩

/-- The correction is made of real numbers when the scattered values are: each entry is zero or a value. -/
theorem correction_fin (rows cols : IVec S6553 32) (vals : FVec Ideal S6553 .f32) (hv : ∀ j, IsFin (vals j)) :
    ∀ i, IsFin (correction rows cols vals i) :=
  Cert.LibScatter.scatter_set_forall scatter_S256x256_S6553x2_S6553_n_01_01_1 IsFin _ (pairs rows cols) vals
    (fun _ => by
      show IsFin (Ideal.ofBits .f32 0x00000000#32)
      rw [Ideal.ofBits_zero_f32]; exact IsFin.zero) hv

/-! ## The reshaped result is the fused arrangement -/

/-- `flat` of the flattened activations, the transposed combined weight and the bias row, reshaped to
    [16, 16384, 256], is `fused` of the arguments. -/
theorem reshaped_flat_is_fused (x : FVec Ideal S16x16384x256 .f32) (W : FVec Ideal S256x256 .f32) (β : FVec Ideal S256 .f32)
    (rows cols : IVec S6553 32) (vals : FVec Ideal S6553 .f32) :
    shapeCast S16x16384x256
        (flat (shapeCast S262144x256 x shapeCasts_S16x16384x256_S262144x256)
          (truncf .bf16 (transpose S256x256 [1, 0] (combined W rows cols vals) transposes_S256x256_S256x256_1_0) bitsLt_bf16_f32)
          (shapeCast S1x256 β shapeCasts_S256_S1x256))
        shapeCasts_S262144x256_S16x16384x256
      = Cert.Spec.fused (Ideal.ofBits .f32 0x3DCCCCCD#32) x W (correction rows cols vals) β := by
  funext i
  obtain ⟨b, s, o, rfl⟩ : ∃ (b : Fin 16) (s : Fin 16384) (o : Fin 256), i = ix3 b s o := ⟨i 0, i 1, i 2, eq_ix3 i⟩
  have hb := b.isLt
  have hs := s.isLt
  have ho := o.isLt
  have hr : b.val * 16384 + s.val < 262144 := by omega
  -- entry [b, s, o] of the reshaped array is row b · 16384 + s, column o of the flattened one
  refine (shapeCast_apply _ shapeCasts_S262144x256_S16x16384x256 (ix3 b s o)
    (ix2 (⟨b.val * 16384 + s.val, hr⟩ : Fin 262144) o) ?_).trans ?_
  · rw [Shape.rowMajor_val_two, Shape.rowMajor_val_three]; rfl
  · show flatAt _ _ _ (⟨b.val * 16384 + s.val, hr⟩ : Fin 262144) o = _
    unfold flatAt Cert.Spec.fused
    refine congrArg₂ (· + ·) (Finset.sum_congr rfl fun k _ => ?_) ?_
    · -- one term: row b · 16384 + s of the flattened activations is x[b, s, ·]; the transposed weight at (k, o)
      have e1 : shapeCast S262144x256 x shapeCasts_S16x16384x256_S262144x256 (ix2 (⟨b.val * 16384 + s.val, hr⟩ : Fin 262144) k)
          = x (ix3 b s k) :=
        shapeCast_apply x shapeCasts_S16x16384x256_S262144x256 _ _ (by
          rw [Shape.rowMajor_val_three, Shape.rowMajor_val_two]; rfl)
      have e2 : transpose S256x256 [1, 0] (combined W rows cols vals) transposes_S256x256_S256x256_1_0 (ix2 k o)
          = combined W rows cols vals (ix2 o k) :=
        transpose_ix2_apply (combined W rows cols vals) transposes_S256x256_S256x256_1_0 k o
      exact congrArg₂ (· * ·) e1 e2
    · exact shapeCast_a_1a_apply β shapeCasts_S256_S1x256 (0 : Fin 1) o

/-! ## The program's result -/

variable (m : (ℓ : Loc nD τ sig) → Buf (Elt Ideal) ℓ) (ρ : Dev nD → PrngReg)

/-- What the program leaves in its result buffer: the operation after the region (a reshape) applied to the region's
    result array. -/
theorem result_eq (c : Dev nD) :
    Pipeline.afterTail₀ cfgs (dats m) 0 (V0 m) [hostOps1] c main_v23
      = Cert.Spec.fused (Ideal.ofBits .f32 0x3DCCCCCD#32) (m ((c : Thread nD τ).loc main_arg0)) (m ((c : Thread nD τ).loc main_arg1))
          (correction (m ((c : Thread nD τ).loc main_arg3)) (m ((c : Thread nD τ).loc main_arg4)) (m ((c : Thread nD τ).loc main_arg5)))
          (m ((c : Thread nD τ).loc main_arg2)) := by
  unfold Pipeline.afterTail₀
  show StableHlo.after hostOps1 _ (Proc.devRef .tc main_v23) = _
  after_results
  have hw : Pipeline.withArrays spec0 c (V0 m c) (fun w => (dats m 0 c).arrAt w cfg0.N) (Proc.devRef .tc main_v22)
      = flat (V m c main_v21) (V m c main_v19) (V m c main_v20) :=
    (Pipeline.withArrays_arr spec0 launch0.win.arr_inj c _ _ 3).trans (region_array m c)
  show shapeCast S16x16384x256 (Pipeline.withArrays spec0 c (V0 m c) (fun w => (dats m 0 c).arrAt w cfg0.N) (Proc.devRef .tc main_v22))
      shapeCasts_S262144x256_S16x16384x256 = _
  rw [hw, rows_eq, weight_eq, bias_eq]
  exact reshaped_flat_is_fused _ _ _ _ _ _

/-- The program's run: every weakly fair execution terminates, the result buffer at the fused arrangement of the
    arguments, the arguments unchanged. -/
theorem run : θ_run defs (onTc (τ := τ) (main (F := Ideal))) ⟨m, fun _ => 0, ρ⟩ fun r => ∀ c : Dev nD,
      r.2.mem ((c.tc : Thread nD τ).loc main_v23)
        = Cert.Spec.fused (Ideal.ofBits .f32 0x3DCCCCCD#32) (m ((c.tc : Thread nD τ).loc main_arg0)) (m ((c.tc : Thread nD τ).loc main_arg1))
            (correction (m ((c.tc : Thread nD τ).loc main_arg3)) (m ((c.tc : Thread nD τ).loc main_arg4)) (m ((c.tc : Thread nD τ).loc main_arg5)))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v23 (Pipeline.mem_restRefs_of main_v23 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Result

end
-- ==== Proof.lean ====
/-
  A dense layer with a sparse "rewiring" correction: out = x · Wᵀ + β + 0.1 · (x · Rᵀ), where R is 6553 values set
  into a 256 × 256 array of zeros at given (row, column) positions.

  The reference computes it as written — two products over the feature axis, the second scaled and added last.
  The kernel program first folds the correction into the weight, W + 0.1 · R, transposes it, and runs ONE product plus
  bias over 64 blocks of 4096 flattened rows, then restores the [16, 16384, 256] shape.

  On extended reals the two agree exactly when distributivity may be used: x · (w + c · r) = x · w + x · (c · r) under
  the sum over features, and (Σ x · r) · c = Σ x · (c · r). Both need the factors to be real numbers, which is what
  the precondition provides for x, W and the scattered values; R inherits it (each entry of R is zero or one of the
  values, wherever the indices point), and 0.1 is a finite float. Changes of float format are the identity here, and
  the order and tiling of the sums do not matter. So: kernel result = fused arrangement (read off the region's blocks
  and the reshape after it) = split arrangement (the law) = reference result (read operation by operation).

  The three frame claims are the generated runs; the idealization rewrote nothing, so `preserves` is trivial.
-/
import proofs.«127691_j6330781794646_2_alg».proof.Defs
import proofs.«127691_j6330781794646_2_alg».proof.Proof.Gen.Kernel
import proofs.«127691_j6330781794646_2_alg».proof.Proof.Gen.Kernel.Skeleton
import proofs.«127691_j6330781794646_2_alg».proof.Proof.Gen.Kernel.Launch
import proofs.«127691_j6330781794646_2_alg».proof.Proof.Gen.Kernel.Points
import proofs.«127691_j6330781794646_2_alg».proof.Proof.Gen.Kernel.Frame
import proofs.«127691_j6330781794646_2_alg».proof.Proof.Gen.KernelIdeal
import proofs.«127691_j6330781794646_2_alg».proof.Proof.Gen.KernelIdeal.Skeleton
import proofs.«127691_j6330781794646_2_alg».proof.Proof.Gen.KernelIdeal.Launch
import proofs.«127691_j6330781794646_2_alg».proof.Proof.Gen.KernelIdeal.Points
import proofs.«127691_j6330781794646_2_alg».proof.Proof.Gen.KernelIdeal.Frame
import proofs.«127691_j6330781794646_2_alg».proof.Proof.Gen.ReferenceIdeal
import proofs.«127691_j6330781794646_2_alg».proof.Proof.Gen.Pre_finite_inputs
import proofs.«127691_j6330781794646_2_alg».proof.Proof.Gen.ReferenceIdeal.Run
import proofs.«127691_j6330781794646_2_alg».proof.Proof.Gen.ReferenceIdeal.Read
import proofs.«127691_j6330781794646_2_alg».proof.Proof.Finite
import proofs.«127691_j6330781794646_2_alg».proof.Proof.RefSplit
import proofs.«127691_j6330781794646_2_alg».proof.Proof.KernelResult
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

/-- The reference's run, with the result dropped. -/
theorem frame_referenceIdeal :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end at the split arrangement of the (agreeing) arguments: the kernel's fused result by the law on
    real data, the reference's operation by operation; the correction is one and the same scatter in both. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.split (Ideal.ofBits .f32 0x3DCCCCCD#32)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (Cert.KernelIdeal.Host.correction (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)))
      (m ((c.tc : Thread Cert.KernelIdeal.nD Cert.KernelIdeal.τ).loc Cert.KernelIdeal.main_arg2)), ?_, ?_⟩
  · -- the kernel program: fused, hence split on the real data the precondition gives
    refine (θ_run Cert.KernelIdeal.defs _ _).mono (fun _ h c => ⟨(h c).1.trans ?_, (h c).2⟩) (Cert.KernelIdeal.Result.run m ρ)
    obtain ⟨hx, hW, -, hv⟩ := Cert.Finite.fin_of_pre _ _ _ _ _ _ (hpre c)
    exact Cert.Spec.fused_eq_split _ _ _ _ _ Cert.KernelIdeal.Result.tenth_fin hx hW
      (Cert.KernelIdeal.Result.correction_fin _ _ _ hv)
  · -- the reference: split of its own arguments, which are the kernel's
    refine (θ_run Cert.ReferenceIdeal.defs _ _).mono (fun _ h c => ⟨(h c).1.trans ?_, (h c).2⟩)
      (Cert.ReferenceIdeal.Value.run (F := Ideal) m' ρ')
    obtain ⟨e0, e1, e2, e3, e4, e5⟩ := hagree c
    rw [Cert.ReferenceIdeal.Read.val_main_v22_eq, Cert.ReferenceIdeal.RefValue.ref_is_split, e0, e1, e2, e3, e4, e5]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
